-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩

abbrev nBuf : Space → Nat
  | .hbm => 5
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1x128, .f32⟩
  | .hbm, ⟨4, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S100000x128, .f32⟩
  | .hbm, ⟨4, _⟩ => ⟨S1x128, .f32⟩
  | .hbm, ⟨5, _⟩ => ⟨S100000x128, .f32⟩
  | .hbm, ⟨6, _⟩ => ⟨S100000x128, .f32⟩
  | .hbm, ⟨7, _⟩ => ⟨S_, .f32⟩
  | .hbm, ⟨8, _⟩ => ⟨S100000x128, .f32⟩
  | .hbm, ⟨9, _⟩ => ⟨S100000x128, .f32⟩
  | .hbm, ⟨10, _⟩ => ⟨S_, .f32⟩
  | .hbm, ⟨11, _⟩ => ⟨S100000x128, .f32⟩
  | .hbm, ⟨12, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.AffineClamp.lean ====
/-
  The layer this certificate is about, written once as a function of its three arrays.

  For a row matrix x (100000 by 128), a weight matrix w (128 by 128) and a bias vector b (128 entries),

      layer x w b [r, q] = max( Σ_{k < 128} x[r, k] · w[k, q]  +  b[q] , 0 )

  over the extended reals: entry q of the affine image of row r, clamped below at zero. Row r of the result depends on
  row r of x only, on all of w and on all of b. Both programs compute exactly this function — one of them block of rows
  by block of rows, the other on the whole matrix and then multiplied by the number one — so no law of arithmetic beyond
  1 · y = y is needed, and that one holds at every extended real, the two infinities included.
-/
import Idealize.ShloMosaic.PureOps.Ideal.Laws
import Idealize.ShloMosaic.Lib.ValueIdx

noncomputable section

namespace Cert.AffineClamp

open Idealize.ShloMosaic Idealize.ShloMosaic.ValueIdx

/-- The shape of the row matrix and of the result. -/
abbrev Rows : Shape := ⟨2, ![100000, 128]⟩
/-- The shape of the weight matrix. -/
abbrev Weights : Shape := ⟨2, ![128, 128]⟩
/-- The shape of the bias vector. -/
abbrev Bias : Shape := ⟨1, ![128]⟩

/-- The clamped affine image: at (r, q), the inner product of row r of x with column q of w, plus b at q, or zero if
    that is negative. -/
def layer (x : FVec Ideal Rows .f32) (w : FVec Ideal Weights .f32) (b : FVec Ideal Bias .f32) : FVec Ideal Rows .f32 :=
  fun i => max ((∑ k : Fin 128, x (ix2 (i 0 : Fin 100000) k) * w (ix2 k (i 1 : Fin 128))) + b (ix1 (i 1 : Fin 128))) 0

/-- The layer at an entry given by its two coordinates. -/
theorem layer_apply (x : FVec Ideal Rows .f32) (w : FVec Ideal Weights .f32) (b : FVec Ideal Bias .f32)
    (r : Fin 100000) (q : Fin 128) :
    layer x w b (ix2 r q) = max ((∑ k : Fin 128, x (ix2 r k) * w (ix2 k q)) + b (ix1 q)) 0 := rfl

/-- The single-precision word 0x3F800000 denotes the number one. -/
theorem word_one : Ideal.ofBits .f32 0x3F800000#32 = 1 := IdealRules.sign_bit.ideal_onePat .f32

end Cert.AffineClamp

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.BlockEntry.lean ====
/-
  What the kernel body computes from one block, read at an entry.

  At a grid point the body holds a block X of 2000 rows of x, the whole weight matrix W and the bias as a single row
  B (1 by 128). It forms X · W on the matrix unit starting from zeros, adds the bias row to every row, and clamps at
  zero. Read at row p and column q of the block this is

      max( Σ_{k < 128} X[p, k] · W[k, q]  +  B[0, q] , 0 ).

  The matrix product is a plain rows-by-columns product (its dimension record is the plain 2000 × 128 by 128 × 128
  one), the cast of the bias row to its own shape is the identity, and a single row spread over 2000 rows reads, at
  (p, q), that row at q.
-/
import proofs.«134378_g70703751627242_cont_sun_c4_186_2_alg».proof.Proof.Gen.KernelIdeal.Skeleton
import proofs.«134378_g70703751627242_cont_sun_c4_186_2_alg».proof.Proof.LibMatmulNN
import Idealize.ShloMosaic.Lib.Pipeline.Value
import Idealize.ShloMosaic.Lib.ValueLayout

noncomputable section

namespace Cert.KernelIdeal.BlockEntry

open Cert.KernelIdeal Cert.KernelIdeal.Gen Idealize.ShloMosaic Idealize.ShloMosaic.ValueIdx

/-- The body's product contracts axis 1 of the block with axis 0 of the weights and has no batch axis. -/
theorem dims_plain : dot_S2000x128_S128x128_S2000x128_1_0_0_1_n_n = DotDims.plain 2000 128 128 := rfl

/-- The stored value at (p, q) of a block: the inner product of row p of the block with column q of the weights, plus
    the bias row at q, clamped below at zero. -/
theorem payload_apply (x0 : FVec Ideal S2000x128 .f32) (x1 : FVec Ideal S128x128 .f32) (x2 : FVec Ideal S1x128 .f32)
    (p : Fin 2000) (q : Fin 128) :
    k0_pay1 (F := Ideal) x0 x1 x2 (ix2 p q)
      = max ((∑ k : Fin 128, x0 (ix2 p k) * x1 (ix2 k q)) + x2 (ix2 (0 : Fin 1) q)) 0 := by
  unfold k0_pay1
  show max (FloatOps.matmul dot_S2000x128_S128x128_S2000x128_1_0_0_1_n_n none x0 x1 (constant (F := Ideal) S2000x128 .f32 0x00000000#32) (ix2 p q)
        + broadcastTo S2000x128 (shapeCast S1x128 x2 shapeCasts_S1x128_S1x128) broadcasts_S1x128_S2000x128 (ix2 p q))
      (Ideal.ofBits .f32 0x00000000#32) = _
  rw [shapeCast_self, broadcastTo_1b_ab_apply, Ideal.ofBits_zero_f32]
  exact congrArg (fun s => max (s + x2 (ix2 (0 : Fin 1) q)) 0)
    (Cert.MatmulNN.matmul_zero_apply _ dims_plain none x0 x1 p q)

end Cert.KernelIdeal.BlockEntry

end
-- ==== Proof.WholeArray.lean ====
/-
  From blocks to the whole array: the kernel's result is the layer.

  The grid has 50 points. At point t the body is given rows 2000·t … 2000·t + 1999 of x, the whole weight matrix and the
  bias as a single row, and what it leaves is written back as rows 2000·t … 2000·t + 1999 of the result. Row p of the
  block at point t is row 2000·t + p of the array, so by the entry formula of the body the block written back at point
  t is exactly the same rows of `layer x w b`. Row r of the array lies in the block of point r / 2000, so the fifty
  blocks cover the array and the result array ends holding `layer x w b`.

  The bias reaches the kernel through one step made before the launch: the vector of 128 entries is recast as a single
  row of 128 entries, whose entry (0, q) is the vector's entry q.
-/
import proofs.«134378_g70703751627242_cont_sun_c4_186_2_alg».proof.Proof.Gen.KernelIdeal.Value
import proofs.«134378_g70703751627242_cont_sun_c4_186_2_alg».proof.Proof.AffineClamp
import proofs.«134378_g70703751627242_cont_sun_c4_186_2_alg».proof.Proof.BlockEntry
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.WholeArray

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The block indices over the grid -/

/-- At point t the row window and the result window sit at block row t, and the weight and bias windows at their one
    block (decided over the 50 points). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The bias row as the region finds it -/

/-- When the region is entered the bias row is the bias vector recast as one row. -/
theorem biasRow (c : Dev nD) :
    (V m c main_call0_v0 : S1x128.Idx → EReal)
      = shapeCast S1x128 (m ((c : Thread nD τ).loc main_arg2) : S128.Idx → EReal) shapeCasts_S128_S1x128 := by
  dsimp only [Gen.V, Gen.hostOps0]
  after_results
  rfl

/-- Its entry (0, q) is the vector's entry q. -/
theorem biasRow_apply (c : Dev nD) (u : Fin 1) (q : Fin 128) :
    (V m c main_call0_v0 : S1x128.Idx → EReal) (ix2 u q) = (m ((c : Thread nD τ).loc main_arg2) : S128.Idx → EReal) (ix1 q) := by
  rw [biasRow]
  exact shapeCast_a_1a_apply _ _ u q

/-! ## Each window's block at a point, read at an entry -/

/-- Row p of the row block at point t is row 2000·t + p of x. -/
theorem rowsBlock_apply (c : Dev nD) (t : Fin cfg0.N) (p : Fin 2000) (k : Fin 128) (r : Fin 100000)
    (hr : r.val = t.val * 2000 + p.val) :
    (iblk m c 0 t : S2000x128.Idx → EReal) (ix2 p k)
      = (m ((c : Thread nD τ).loc main_arg0) : S100000x128.Idx → EReal) (ix2 r k) := by
  obtain ⟨e0, e1, -⟩ := idx_facts t
  show (V m c main_arg0 : S100000x128.Idx → EReal) (((cfg0.win 0).blk t).view.emb (ix2 p k)) = _
  rw [V_main_arg0]
  refine congrArg (m ((c : Thread nD τ).loc main_arg0) : S100000x128.Idx → EReal) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The weight block at every point is the whole weight matrix. -/
theorem weightsBlock_apply (c : Dev nD) (t : Fin cfg0.N) (k q : Fin 128) :
    (iblk m c 1 t : S128x128.Idx → EReal) (ix2 k q)
      = (m ((c : Thread nD τ).loc main_arg1) : S128x128.Idx → EReal) (ix2 k q) := by
  obtain ⟨-, -, e2, e3, -⟩ := idx_facts t
  show (V m c main_arg1 : S128x128.Idx → EReal) (((cfg0.win 1).blk t).view.emb (ix2 k q)) = _
  rw [V_main_arg1]
  refine congrArg (m ((c : Thread nD τ).loc main_arg1) : S128x128.Idx → EReal) (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The bias block at every point is the bias row, whose entry (0, q) is the bias vector's entry q. -/
theorem biasBlock_apply (c : Dev nD) (t : Fin cfg0.N) (q : Fin 128) :
    (iblk m c 2 t : S1x128.Idx → EReal) (ix2 (0 : Fin 1) q)
      = (m ((c : Thread nD τ).loc main_arg2) : S128.Idx → EReal) (ix1 q) := by
  obtain ⟨-, -, -, -, e4, e5, -⟩ := idx_facts t
  show (V m c main_call0_v0 : S1x128.Idx → EReal) (((cfg0.win 2).blk t).view.emb (ix2 (0 : Fin 1) q)) = _
  refine Eq.trans (congrArg (V m c main_call0_v0 : S1x128.Idx → EReal) (funext fun a => Fin.ext ?_)) (biasRow_apply m c 0 q)
  match a with
  | ⟨0, _⟩ => show win0_2.index t (0 : Fin 2) * 1 + 1 * 0 = 0; rw [e4]
  | ⟨1, _⟩ => show win0_2.index t (1 : Fin 2) * 128 + 1 * q.val = q.val; rw [e5]; omega

/-! ## What a point writes back -/

/-- What point t writes back is block t of the layer of the three argument arrays. -/
theorem flushed_eq (c : Dev nD) (t : Fin cfg0.N) :
    (dats m 0 c).flushed 3 t = ((cfg0.win 3).blk t).view.read (Elt Ideal)
      (Cert.AffineClamp.layer (m ((c : Thread nD τ).loc main_arg0)) (m ((c : Thread nD τ).loc main_arg1)) (m ((c : Thread nD τ).loc main_arg2))) := by
  rw [flushed3]
  unfold out0_3
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, e6, e7⟩ := idx_facts t
  have hN : grid0.N = 50 := N_0
  funext j
  obtain ⟨p, q, rfl⟩ : ∃ (p : Fin 2000) (q : Fin 128), j = ix2 p q := ⟨j 0, j 1, eq_ix2 j⟩
  have ht : t.val < 50 := hN ▸ t.isLt
  have hr : t.val * 2000 + p.val < 100000 := by have := p.isLt; omega
  have hemb : ((cfg0.win 3).blk t).view.emb (ix2 p q) = (ix2 (⟨t.val * 2000 + p.val, hr⟩ : Fin 100000) q : S100000x128.Idx) := by
    funext a; apply Fin.ext
    match a with
    | ⟨0, _⟩ => show win0_3.index t (0 : Fin 2) * 2000 + 1 * p.val = t.val * 2000 + p.val; rw [e6]; omega
    | ⟨1, _⟩ => show win0_3.index t (1 : Fin 2) * 128 + 1 * q.val = q.val; rw [e7]; omega
  show k0_pay1 (F := Ideal) (iblk m c 0 t) (iblk m c 1 t) (iblk m c 2 t) (ix2 p q)
    = Cert.AffineClamp.layer _ _ _ (((cfg0.win 3).blk t).view.emb (ix2 p q))
  rw [hemb, Cert.AffineClamp.layer_apply]
  refine (Cert.KernelIdeal.BlockEntry.payload_apply _ _ _ p q).trans ?_
  rw [biasBlock_apply m c t q]
  refine congrArg (fun s => max (s + (m ((c : Thread nD τ).loc main_arg2) : S128.Idx → EReal) (ix1 q)) 0) ?_
  refine Finset.sum_congr rfl fun k _ => ?_
  rw [rowsBlock_apply m c t p k ⟨t.val * 2000 + p.val, hr⟩ rfl, weightsBlock_apply m c t k q]

/-! ## The fifty blocks cover the array -/

/-- An entry of the result array is in point t's block iff each of its coordinates is in the block's range. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v0).slice (win0_3.rect t)).set ↔ _
  rw [View.set_slice_whole, Rect.mem_set_unit]
  exact Iff.rfl

/-- Row r of the array is in the block of point r / 2000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 50 := N_0
  have hlt : (i 0).val / 2000 < cfg0.N := by show (i 0).val / 2000 < grid0.N; rw [hN]; omega
  obtain ⟨-, -, -, -, -, -, e6, e7⟩ := idx_facts ⟨(i 0).val / 2000, hlt⟩
  refine ⟨⟨(i 0).val / 2000, hlt⟩, flush0_3 _, ?_⟩
  rw [mem_blk]
  intro a
  match a with
  | ⟨0, _⟩ =>
    show win0_3.index ⟨(i 0).val / 2000, hlt⟩ (0 : Fin 2) * 2000 ≤ (i 0).val ∧ (i 0).val < win0_3.index ⟨(i 0).val / 2000, hlt⟩ (0 : Fin 2) * 2000 + 2000
    rw [e6]
    show (i 0).val / 2000 * 2000 ≤ (i 0).val ∧ (i 0).val < (i 0).val / 2000 * 2000 + 2000
    omega
  | ⟨1, _⟩ =>
    show win0_3.index ⟨(i 0).val / 2000, hlt⟩ (1 : Fin 2) * 128 ≤ (i 1).val ∧ (i 1).val < win0_3.index ⟨(i 0).val / 2000, hlt⟩ (1 : Fin 2) * 128 + 128
    rw [e7]
    omega

/-! ## The result array, and the run -/

/-- After the run the result array is the layer of the three argument arrays. -/
theorem final (c : Dev nD) :
    (dats m 0 c).arrAt 3 cfg0.N
      = Cert.AffineClamp.layer (m ((c : Thread nD τ).loc main_arg0)) (m ((c : Thread nD τ).loc main_arg1)) (m ((c : Thread nD τ).loc main_arg2)) :=
  (dats m 0 c).arrAt_eq_of_cover 3 _ (fun t _ => flushed_eq m c t) cover

/-- Every weakly fair execution of the kernel's program terminates with the result array at the layer of the
    arguments and the arguments unchanged. -/
theorem run : θ_run defs (onTc (τ := τ) (main (F := Ideal))) ⟨m, fun _ => 0, ρ⟩ fun r => ∀ c : Dev nD,
      r.2.mem ((c : Thread nD τ).loc main_v0)
        = Cert.AffineClamp.layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.WholeArray

end
-- ==== Proof.RefLayer.lean ====
/-
  The reference computes the layer.

  The reference forms x · w as one matrix product over all 100000 rows, spreads the bias vector over the rows (first
  as a single row, then over every row), adds, clamps at zero against a matrix of zeros, and multiplies the result
  by a matrix filled with the number one. Read at (r, q):

      1 · max( Σ_{k < 128} x[r, k] · w[k, q]  +  b[q] , 0 ),

  and multiplying by one changes no extended real, finite or infinite. So the reference's result is `layer x w b`.
-/
import proofs.«134378_g70703751627242_cont_sun_c4_186_2_alg».proof.Proof.Gen.ReferenceIdeal.Read
import proofs.«134378_g70703751627242_cont_sun_c4_186_2_alg».proof.Proof.AffineClamp

noncomputable section

namespace Cert.ReferenceIdeal.RefLayer

open Cert.ReferenceIdeal Cert.ReferenceIdeal.Gen Cert.ReferenceIdeal.Read
open Idealize.ShloMosaic Idealize.ShloMosaic.ValueIdx

/-- At output entry (r, q) and contraction position k the product reads x at (r, k) … -/
theorem lhs_entry (r : Fin 100000) (q k : Fin 128) : lidx_main_v0 (ix2 r q) k = ix2 r k :=
  funext fun a => Fin.ext (by match a with | ⟨0, _⟩ => rfl | ⟨1, _⟩ => rfl)

/-- … and w at (k, q). -/
theorem rhs_entry (r : Fin 100000) (q k : Fin 128) : ridx_main_v0 (ix2 r q) k = ix2 k q :=
  funext fun a => Fin.ext (by match a with | ⟨0, _⟩ => rfl | ⟨1, _⟩ => rfl)

/-- The bias spread over the rows reads, at (r, q), the bias vector at q. -/
theorem bias_entry (r : Fin 100000) (q : Fin 128) : idx_main_v1 (idx_main_v2 (ix2 r q)) = ix1 q :=
  funext fun a => Fin.ext (by match a with | ⟨0, _⟩ => rfl)

/-- The reference's last stage is the layer of its three arguments. -/
theorem result_eq (x : FVec Ideal S100000x128 .f32) (w : FVec Ideal S128x128 .f32) (b : FVec Ideal S128 .f32) :
    val_main_v6 (F := Ideal) x w b = Cert.AffineClamp.layer x w b := by
  funext i
  obtain ⟨r, q, rfl⟩ : ∃ (r : Fin 100000) (q : Fin 128), i = ix2 r q := ⟨i 0, i 1, eq_ix2 i⟩
  rw [val_main_v6_apply, val_main_v5_apply, val_main_cst_apply, val_main_v4_apply, val_main_call0_v0_apply,
    val_main_call0_cst_apply, val_main_v3_apply, val_main_v2_apply, val_main_v1_apply, val_main_v0_apply,
    Cert.AffineClamp.layer_apply]
  simp only [lhs_entry, rhs_entry, bias_entry, Ideal.mulf_def, Ideal.maximumf_def, Ideal.addf_def, Ideal.ofBits_def,
    Ideal.ofBits_zero_f32, Cert.AffineClamp.word_one, one_mul]

end Cert.ReferenceIdeal.RefLayer

end
-- ==== Proof.lean ====
/-
  A dense layer with a clamp at zero, computed two ways, is one function of its inputs.

  The inputs are a row matrix x (100000 by 128), a weight matrix w (128 by 128) and a bias vector b (128 entries), and

      layer x w b [r, q] = max( Σ_{k < 128} x[r, k] · w[k, q]  +  b[q] , 0 )        (Proof/AffineClamp.lean).

  The kernel cuts the rows into fifty blocks of 2000. For each block it multiplies the block by the whole weight matrix
  starting from zeros, adds the bias (handed to it as a single row) to every row and clamps at zero; row p of block t is
  row 2000·t + p of the array, so each block written back is the same rows of `layer x w b`, and the fifty blocks
  cover the array (Proof/BlockEntry.lean: the body at an entry; Proof/WholeArray.lean: from blocks to the array).

  The reference multiplies the whole matrices, adds the bias spread over the rows, clamps at zero and multiplies by a
  matrix of ones; since 1 · y = y at every extended real its result is `layer x w b` too (Proof/RefLayer.lean).

  A matrix product accumulated from zero is the same finite sum on either side, so no rearrangement of sums and no
  cancellation is used: the equality holds at infinite entries as well, and the finiteness of the inputs is never opened.
  Both idealized programs are the printed programs read over the extended reals with no rewrite applied, so there is
  nothing to preserve beyond that reading. Each program's run also ends with its three argument arrays unchanged.
-/
import proofs.«134378_g70703751627242_cont_sun_c4_186_2_alg».proof.Defs
import proofs.«134378_g70703751627242_cont_sun_c4_186_2_alg».proof.Proof.Gen.Kernel
import proofs.«134378_g70703751627242_cont_sun_c4_186_2_alg».proof.Proof.Gen.Kernel.Skeleton
import proofs.«134378_g70703751627242_cont_sun_c4_186_2_alg».proof.Proof.Gen.Kernel.Launch
import proofs.«134378_g70703751627242_cont_sun_c4_186_2_alg».proof.Proof.Gen.Kernel.Points
import proofs.«134378_g70703751627242_cont_sun_c4_186_2_alg».proof.Proof.Gen.Kernel.Frame
import proofs.«134378_g70703751627242_cont_sun_c4_186_2_alg».proof.Proof.Gen.KernelIdeal
import proofs.«134378_g70703751627242_cont_sun_c4_186_2_alg».proof.Proof.Gen.KernelIdeal.Skeleton
import proofs.«134378_g70703751627242_cont_sun_c4_186_2_alg».proof.Proof.Gen.KernelIdeal.Launch
import proofs.«134378_g70703751627242_cont_sun_c4_186_2_alg».proof.Proof.Gen.KernelIdeal.Points
import proofs.«134378_g70703751627242_cont_sun_c4_186_2_alg».proof.Proof.Gen.KernelIdeal.Frame
import proofs.«134378_g70703751627242_cont_sun_c4_186_2_alg».proof.Proof.Gen.ReferenceIdeal
import proofs.«134378_g70703751627242_cont_sun_c4_186_2_alg».proof.Proof.Gen.Pre_finite_inputs
import proofs.«134378_g70703751627242_cont_sun_c4_186_2_alg».proof.Proof.Gen.KernelIdeal.Value
import proofs.«134378_g70703751627242_cont_sun_c4_186_2_alg».proof.Proof.Gen.ReferenceIdeal.Run
import proofs.«134378_g70703751627242_cont_sun_c4_186_2_alg».proof.Proof.Gen.ReferenceIdeal.Read
import proofs.«134378_g70703751627242_cont_sun_c4_186_2_alg».proof.Proof.AffineClamp
import proofs.«134378_g70703751627242_cont_sun_c4_186_2_alg».proof.Proof.WholeArray
import proofs.«134378_g70703751627242_cont_sun_c4_186_2_alg».proof.Proof.RefLayer
import Idealize.ShloMosaic.Adequacy
import Idealize.ShloMosaic.Init

noncomputable section

namespace Cert.Proof

open Idealize.ShloMosaic Idealize.ShloMosaic.TcCoe Idealize.SL.Sem

/-- The kernel's program as printed runs to the end and leaves its arguments as they were. -/
theorem frame_kernel : Cert.frame_Kernel := fun m ρ _ => Cert.Kernel.Gen.frame m ρ

/-- So does the same program read over the extended reals. -/
theorem frame_kernelIdeal : Cert.frame_KernelIdeal := fun m ρ _ => Cert.KernelIdeal.Gen.frame m ρ

/-- The reference has no kernel: its run, with the result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories that agree on x, w and b, the kernel's result array and the reference's both end at
    `layer x w b`. -/
theorem algebraic : Cert.algebraic_KernelIdeal_ReferenceIdeal := by
  intro m ρ m' ρ' _ hagree
  refine ⟨fun c => Cert.AffineClamp.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefLayer.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
